-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x1x64 : Shape := ⟨4, ![32, 8192, 1, 64]⟩
abbrev S_ : Shape := ⟨0, ![]⟩

class Facts : Prop where
  bcast_S_S32x8192x1x64 : S_.BroadcastsInDim S32x8192x1x64 (![] : Fin 0 → Fin S32x8192x1x64.rank)
  reducesTo_S32x8192x1x64_S_d0_1_2_3 : S32x8192x1x64.ReducesTo [0, 1, 2, 3] S_
  h_S_ : 0 < S_.numel

variable [Facts]

def fn {F : FTy → Type} [FloatOps F] (main_arg0 : FVec F S32x8192x1x64 .f32) : IVec S_ 1 :=
  let main_v0 : FVec F S32x8192x1x64 .f32 := Host.absf main_arg0
  let main_cst : FVec F S_ .f32 := constant S_ .f32 0x7F800000#32
  let main_v1 : FVec F S32x8192x1x64 .f32 := broadcastInDim S32x8192x1x64 ![] bcast_S_S32x8192x1x64 main_cst
  let main_v2 : IVec S32x8192x1x64 1 := cmpf .olt main_v0 main_v1
  let main_c : IVec S_ 1 := constantI S_ 1 1#1
  let main_v3 : IVec S_ 1 := (fun x v => Host.reduce IntOp.andi x v reducesTo_S32x8192x1x64_S_d0_1_2_3 h_S_) main_v2 main_c
  main_v3
-- ==== Kernel.lean ====
abbrev S32x8192x1x64 : Shape := ⟨4, ![32, 8192, 1, 64]⟩
abbrev S32x8192x64 : Shape := ⟨3, ![32, 8192, 64]⟩
abbrev S8192x4096 : Shape := ⟨2, ![8192, 4096]⟩
abbrev S32x256x64 : Shape := ⟨3, ![32, 256, 64]⟩
abbrev S256x4096 : Shape := ⟨2, ![256, 4096]⟩
abbrev S32x128x64 : Shape := ⟨3, ![32, 128, 64]⟩
abbrev S128x64 : Shape := ⟨2, ![128, 64]⟩
abbrev S128x64x1 : Shape := ⟨3, ![128, 64, 1]⟩
abbrev S128x64x64 : Shape := ⟨3, ![128, 64, 64]⟩
abbrev S128x1x64 : Shape := ⟨3, ![128, 1, 64]⟩
abbrev S128x4096 : Shape := ⟨2, ![128, 4096]⟩

abbrev nBuf : Space → Nat
  | .hbm => 3
  | .vmem => 4
  | .smem => 0
  | _ => 0

abbrev bufTy : (tb : Table) → Fin (tcTables nBuf tb) → BufTy
  | .hbm, ⟨0, _⟩ => ⟨S32x8192x1x64, .f32⟩
  | .hbm, ⟨1, _⟩ => ⟨S32x8192x64, .f32⟩
  | .hbm, ⟨2, _⟩ => ⟨S8192x4096, .f32⟩
  | .local _ .vmem, ⟨0, _⟩ => ⟨S32x256x64, .f32⟩
  | .local _ .vmem, ⟨1, _⟩ => ⟨S32x256x64, .f32⟩
  | .local _ .vmem, ⟨2, _⟩ => ⟨S256x4096, .f32⟩
  | .local _ .vmem, ⟨3, _⟩ => ⟨S256x4096, .f32⟩
  | _, _ => ⟨S32x8192x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x8192x1x64_S32x8192x64 : S32x8192x1x64.ShapeCasts S32x8192x64
  inb_S32x256x64_S32x128x64_0_0_0 : ∀ a, (![0, 0, 0] : Fin 3 → Nat) a + S32x128x64.size a ≤ S32x256x64.size a
  h_S32x128x64 : 0 < S32x128x64.numel
  shapeCasts_S32x128x64_S32x128x64 : S32x128x64.ShapeCasts S32x128x64
  reduces_S32x128x64_S128x64 : S32x128x64.Reduces [0] S128x64
  shapeCasts_S128x64_S128x64x1 : S128x64.ShapeCasts S128x64x1
  shapeCasts_S128x64x1_S128x64x1 : S128x64x1.ShapeCasts S128x64x1
  broadcasts_S128x64x1_S128x64x64 : S128x64x1.Broadcasts S128x64x64
  shapeCasts_S128x64_S128x1x64 : S128x64.ShapeCasts S128x1x64
  shapeCasts_S128x1x64_S128x1x64 : S128x1x64.ShapeCasts S128x1x64
  broadcasts_S128x1x64_S128x64x64 : S128x1x64.Broadcasts S128x64x64
  shapeCasts_S128x64x64_S128x4096 : S128x64x64.ShapeCasts S128x4096
  inb_S256x4096_S128x4096_0_0 : ∀ a, (![0, 0] : Fin 2 → Nat) a + S128x4096.size a ≤ S256x4096.size a
  h_S128x4096 : 0 < S128x4096.numel
  inb_S32x256x64_S32x128x64_0_128_0 : ∀ a, (![0, 128, 0] : Fin 3 → Nat) a + S32x128x64.size a ≤ S32x256x64.size a
  inb_S256x4096_S128x4096_128_0 : ∀ a, (![128, 0] : Fin 2 → Nat) a + S128x4096.size a ≤ S256x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x64.size a ≤ S32x8192x64.size a
  hwx0_0 : ∀ i : grid0.Coords, EltTy.bits .f32 = 32 ∨ (Rect.block (s := S32x8192x64) S32x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)

variable [Facts₀]

abbrev win0_0 : Pipeline.Window sig grid0 :=
  Pipeline.Window.ofSpec (Memref.whole main_v0) S32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x8192x1x64 : Shape := ⟨4, ![32, 8192, 1, 64]⟩
abbrev S_ : Shape := ⟨0, ![]⟩
abbrev S8192x1x64 : Shape := ⟨3, ![8192, 1, 64]⟩
abbrev S8192x64x64 : Shape := ⟨3, ![8192, 64, 64]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32x8192x1x64, .f32⟩
  | .hbm, ⟨1, _⟩ => ⟨S_, .f32⟩
  | .hbm, ⟨2, _⟩ => ⟨S8192x1x64, .f32⟩
  | .hbm, ⟨3, _⟩ => ⟨S8192x64x64, .f32⟩
  | .hbm, ⟨4, _⟩ => ⟨S8192x4096, .f32⟩
  | _, _ => ⟨S32x8192x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  reducesTo_S32x8192x1x64_S8192x1x64_d0 : S32x8192x1x64.ReducesTo [0] S8192x1x64
  h_S_ : 0 < S_.numel
  shapeCasts_S8192x64x64_S8192x4096 : S8192x64x64.ShapeCasts S8192x4096
  dot_S8192x1x64_S8192x1x64_S8192x64x64_1_1_2_2_0_0_wf : DotDims.WF S8192x1x64 S8192x1x64 S8192x64x64 [1] [1] [2] [2] [0] [0]

variable [Facts₀]

def dot_S8192x1x64_S8192x1x64_S8192x64x64_1_1_2_2_0_0 : DotDims S8192x1x64 S8192x1x64 S8192x64x64 where
  lhsContracting := [1]
  rhsContracting := [1]
  lhsNonContracting := [2]
  rhsNonContracting := [2]
  lhsBatch := [0]
  rhsBatch := [0]
  wf := dot_S8192x1x64_S8192x1x64_S8192x64x64_1_1_2_2_0_0_wf

class Facts : Prop extends Facts₀ where

variable [Facts]
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibPoolLayout.lean ====
/-
  Reductions and layout operations of a POOLING body, read at coordinates, at every extent.

  A body that pools a stack of matrices over its leading axis and then flattens what is left for a matrix product
  meets these forms; none computes anything but the maximum, and the lemmas name, by coordinates, which entries
  each result reads:
    • a maximum along the LEADING axis of an `[n, a, b]` array of extended reals, from the accumulator's value:
      entry `(r, s)` is the fold of `max` over `k` of the entries `(k, r, s)` (`leadMax_apply`);
    • the host's one-operand reduce with a maximum body along axis 1 of a `[p, n, a, b]` array: entry `(q, r, s)` is
      the fold of `max`, from the initial value's one element, over `k` of the entries `(q, k, r, s)`
      (`hostMaxAxis1_apply`) — the same fold;
    • the two TRAILING axes merged, `[a, b, n] → [a, m]` with `m = b·n`: column `j = s·n + k` of row `r` is entry
      `(r, s, k)` (`shapeCast_abn_am_apply`; the flat column is passed with its equation, so that a literal extent
      such as `1024` need not be recognised as a product);
    • the two leading axes of a rank-3 array exchanged (permutation `[1, 0, 2]`): entry `(s, r, k)` is entry
      `(r, s, k)` of the operand (`transpose_ix3_102_apply`).
-/
import Idealize.ShloMosaic.Lib.Pipeline.Value
import Idealize.ShloMosaic.Lib.ValueIdx
import Idealize.ShloMosaic.PureOps.Ideal.Laws

namespace Cert.PoolLayout

open Idealize.ShloMosaic Idealize.ShloMosaic.ValueIdx

variable {α : Type}

/-- A maximum along the leading axis of an `[n, a, b]` array of extended reals reads, at `(r, s)`, the fold of `max`,
    from the value the accumulator's word denotes, over `k` of the entries `(k, r, s)`. -/
theorem leadMax_apply {n a b : ℕ} (src : FVec Ideal ⟨3, ![n, a, b]⟩ .f32) (acc : BitVec 32)
    (h : (⟨3, ![n, a, b]⟩ : Shape).Reduces [0] ⟨2, ![a, b]⟩) (hφ : FKind.Formats .f32)
    (hacc : acc = FKind.maximumf.neutral .f32 hφ) (r : Fin a) (s : Fin b) :
    multiReduction .maximumf [0] ⟨2, ![a, b]⟩ src acc h hφ hacc (ix2 r s)
      = (Finset.univ : Finset (Fin n)).fold max (Ideal.ofBits .f32 acc) (fun k => src (ix3 k r s)) := by
  refine (Ideal.multiReduction_maximumf_single src acc h hφ hacc (ix2 r s)).trans ?_
  show (Finset.univ : Finset (Fin n)).fold max (Ideal.ofBits .f32 acc) (src ∘ h.lift (ix2 r s)) = _
  refine congrArg (fun f => Finset.fold max (Ideal.ofBits .f32 acc) f (Finset.univ : Finset (Fin n)))
    (funext fun k => congrArg src (funext fun c => Fin.ext ?_))
  match c with
  | ⟨0, _⟩ => rfl
  | ⟨1, _⟩ => rfl
  | ⟨2, _⟩ => rfl

/-- The host's one-operand reduce with a maximum body along axis 1 of a `[p, n, a, b]` array of extended reals reads,
    at `(q, r, s)`, the fold of `max`, from the initial value's one element, over `k` of the entries `(q, k, r, s)`. -/
theorem hostMaxAxis1_apply {p n a b : ℕ} {u : Shape} (x : (⟨4, ![p, n, a, b]⟩ : Shape).Idx → Ideal .f32)
    (init : u.Idx → Ideal .f32) (h' : (⟨4, ![p, n, a, b]⟩ : Shape).ReducesTo [1] ⟨3, ![p, a, b]⟩)
    (h : (⟨4, ![p, n, a, b]⟩ : Shape).Reduces [1] ⟨3, ![p, a, b]⟩) (hu : 0 < u.numel) (q : Fin p) (r : Fin a) (s : Fin b) :
    Host.reduce FloatOps.maximumf x init h' hu (ix3 q r s)
      = (Finset.univ : Finset (Fin n)).fold max (init (Shape.Idx.first hu)) (fun k => x (ix4 q k r s)) := by
  refine (Host.reduce_eq_fold_single FloatOps.maximumf x init h' h hu (ix3 q r s)).trans ?_
  show (Finset.univ : Finset (Fin n)).fold max (init (Shape.Idx.first hu)) (x ∘ h.lift (ix3 q r s)) = _
  refine congrArg (fun f => Finset.fold max (init (Shape.Idx.first hu)) f (Finset.univ : Finset (Fin n)))
    (funext fun k => congrArg x (funext fun c => Fin.ext ?_))
  match c with
  | ⟨0, _⟩ => rfl
  | ⟨1, _⟩ => rfl
  | ⟨2, _⟩ => rfl
  | ⟨3, _⟩ => rfl

/-- The two trailing axes merged: an `[a, b, n]` array cast to `[a, m]`, `m = b·n`, reads, at `(r, j)` with
    `j = s·n + k`, the operand at `(r, s, k)`: the two indices have the same row-major position. -/
theorem shapeCast_abn_am_apply {a b n m : ℕ} (w : (⟨3, ![a, b, n]⟩ : Shape).Idx → α)
    (h : (⟨3, ![a, b, n]⟩ : Shape).ShapeCasts ⟨2, ![a, m]⟩) (hm : m = b * n) (r : Fin a) (s : Fin b) (k : Fin n)
    (j : Fin m) (hj : j.val = s.val * n + k.val) :
    shapeCast ⟨2, ![a, m]⟩ w h (ix2 r j) = w (ix3 r s k) :=
  shapeCast_apply w h _ _ (by
    rw [Shape.rowMajor_val_three, Shape.rowMajor_val_two]
    show (r.val * b + s.val) * n + k.val = r.val * m + j.val
    rw [hj, hm]; ring)

/-- The two leading axes of a rank-3 array exchanged: the result reads, at `(s, r, k)`, the operand at `(r, s, k)`. -/
theorem transpose_ix3_102_apply {a b n : ℕ} (x : (⟨3, ![a, b, n]⟩ : Shape).Idx → α)
    (h : (⟨3, ![a, b, n]⟩ : Shape).Transposes [1, 0, 2] ⟨3, ![b, a, n]⟩) (s : Fin b) (r : Fin a) (k : Fin n) :
    transpose ⟨3, ![b, a, n]⟩ [1, 0, 2] x h (ix3 s r k) = x (ix3 r s k) :=
  transpose_apply _ x h _ _ fun c => match c with | ⟨0, _⟩ => rfl | ⟨1, _⟩ => rfl | ⟨2, _⟩ => rfl

end Cert.PoolLayout
-- ==== Proof.LibLeadSumOuter.lean ====
/-
  A sum along the LEADING axis of a rank-3 array, and the flattened outer product of a matrix's rows with
  themselves, read at coordinates, at every extent.

  A body that adds up a stack of `n` matrices `[n, a, d]` entry by entry, then multiplies every entry of a row of the
  sum by every entry of the same row and flattens the `d × d` products of each row into one row of length `d·d`
  meets these forms:
    • a sum along the leading axis of an `[n, a, b]` array of extended reals, from the zero accumulator: entry
      `(r, s)` is `∑ₖ` of the entries `(k, r, s)` (`leadSum_apply`);
    • for a matrix `S` of shape `[a, d]`: `S` spread along a new LAST axis times `S` spread along a new MIDDLE axis,
      the two trailing axes then merged — column `j = s·d + k` of row `r` is `S (r, s) · S (r, k)`
      (`selfOuter_apply`);
    • the two composed: column `j = s·d + k` of row `r` is `(∑_f X (f, r, s)) · (∑_f X (f, r, k))`
      (`sumOuter_apply`).
  Only the sums and the one product compute anything; everything else names which entries are read.
-/
import Idealize.ShloMosaic.Lib.Pipeline.Value
import Idealize.ShloMosaic.Lib.ValueIdx
import Idealize.ShloMosaic.PureOps.Ideal.Laws
import proofs.«147543_j71545565217479_2_alg».proof.Proof.LibRank3Layout
import proofs.«147543_j71545565217479_2_alg».proof.Proof.LibOuterLayout
import proofs.«147543_j71545565217479_2_alg».proof.Proof.LibPoolLayout

namespace Cert.LeadSumOuter

open Idealize.ShloMosaic Idealize.ShloMosaic.ValueIdx

/-- A sum along the leading axis of an `[n, a, b]` array of extended reals, from the zero accumulator, reads at
    `(r, s)` the sum over `k` of the entries `(k, r, s)`. The last hypothesis says that the accumulator's word, zero,
    is the neutral word of addition. -/
theorem leadSum_apply {n a b : ℕ} (src : FVec Ideal ⟨3, ![n, a, b]⟩ .f32)
    (h : (⟨3, ![n, a, b]⟩ : Shape).Reduces [0] ⟨2, ![a, b]⟩) (hφ : FKind.Formats .f32)
    (hacc : (0x00000000#32 : BitVec 32) = FKind.add.neutral .f32 hφ) (r : Fin a) (s : Fin b) :
    multiReduction .add [0] ⟨2, ![a, b]⟩ src 0x00000000#32 h hφ hacc (ix2 r s) = ∑ k : Fin n, src (ix3 k r s) := by
  refine (Ideal.multiReduction_add_single src 0x00000000#32 h hφ hacc (ix2 r s)).trans ?_
  show ∑ k : Fin n, src (h.lift (ix2 r s) k) = ∑ k : Fin n, src (ix3 k r s)
  refine Finset.sum_congr rfl fun k _ => congrArg src (funext fun c => Fin.ext ?_)
  match c with
  | ⟨0, _⟩ => rfl
  | ⟨1, _⟩ => rfl
  | ⟨2, _⟩ => rfl

/-- The flattened outer product of the rows of an `[a, d]` matrix `S` with themselves: `S` given a trailing unit axis
    and spread along it, times `S` given a middle unit axis and spread along it, the two trailing axes merged into one
    of length `m = d·d`. Column `j = s·d + k` of row `r` is `S (r, s) · S (r, k)`. -/
theorem selfOuter_apply {a d m : ℕ} (S : FVec Ideal ⟨2, ![a, d]⟩ .f32)
    (hc1 : (⟨2, ![a, d]⟩ : Shape).ShapeCasts ⟨3, ![a, d, 1]⟩) (hb1 : (⟨3, ![a, d, 1]⟩ : Shape).Broadcasts ⟨3, ![a, d, d]⟩)
    (hc2 : (⟨2, ![a, d]⟩ : Shape).ShapeCasts ⟨3, ![a, 1, d]⟩) (hb2 : (⟨3, ![a, 1, d]⟩ : Shape).Broadcasts ⟨3, ![a, d, d]⟩)
    (hm : (⟨3, ![a, d, d]⟩ : Shape).ShapeCasts ⟨2, ![a, m]⟩) (hmd : m = d * d)
    (r : Fin a) (s k : Fin d) (j : Fin m) (hj : j.val = s.val * d + k.val) :
    shapeCast ⟨2, ![a, m]⟩
        (mulf (broadcastTo ⟨3, ![a, d, d]⟩ (shapeCast ⟨3, ![a, d, 1]⟩ S hc1) hb1)
          (broadcastTo ⟨3, ![a, d, d]⟩ (shapeCast ⟨3, ![a, 1, d]⟩ S hc2) hb2)) hm (ix2 r j)
      = S (ix2 r s) * S (ix2 r k) := by
  refine (Cert.PoolLayout.shapeCast_abn_am_apply _ hm hmd r s k j hj).trans ?_
  show broadcastTo ⟨3, ![a, d, d]⟩ (shapeCast ⟨3, ![a, d, 1]⟩ S hc1) hb1 (ix3 r s k)
      * broadcastTo ⟨3, ![a, d, d]⟩ (shapeCast ⟨3, ![a, 1, d]⟩ S hc2) hb2 (ix3 r s k) = _
  rw [Cert.Rank3Layout.column_apply S hc1 hb1 r s k, Cert.OuterLayout.middle_apply S hc2 hb2 r s k]

/-- A stack `X` of `n` matrices `[n, a, d]` added up along its leading axis, then the flattened outer product of the
    sum's rows with themselves: column `j = s·d + k` of row `r` is `(∑_f X (f, r, s)) · (∑_f X (f, r, k))`. -/
theorem sumOuter_apply {n a d m : ℕ} (X : FVec Ideal ⟨3, ![n, a, d]⟩ .f32)
    (h : (⟨3, ![n, a, d]⟩ : Shape).Reduces [0] ⟨2, ![a, d]⟩) (hφ : FKind.Formats .f32)
    (hacc : (0x00000000#32 : BitVec 32) = FKind.add.neutral .f32 hφ)
    (hc1 : (⟨2, ![a, d]⟩ : Shape).ShapeCasts ⟨3, ![a, d, 1]⟩) (hb1 : (⟨3, ![a, d, 1]⟩ : Shape).Broadcasts ⟨3, ![a, d, d]⟩)
    (hc2 : (⟨2, ![a, d]⟩ : Shape).ShapeCasts ⟨3, ![a, 1, d]⟩) (hb2 : (⟨3, ![a, 1, d]⟩ : Shape).Broadcasts ⟨3, ![a, d, d]⟩)
    (hm : (⟨3, ![a, d, d]⟩ : Shape).ShapeCasts ⟨2, ![a, m]⟩) (hmd : m = d * d)
    (r : Fin a) (s k : Fin d) (j : Fin m) (hj : j.val = s.val * d + k.val) :
    shapeCast ⟨2, ![a, m]⟩
        (mulf (broadcastTo ⟨3, ![a, d, d]⟩
            (shapeCast ⟨3, ![a, d, 1]⟩ (multiReduction .add [0] ⟨2, ![a, d]⟩ X 0x00000000#32 h hφ hacc) hc1) hb1)
          (broadcastTo ⟨3, ![a, d, d]⟩
            (shapeCast ⟨3, ![a, 1, d]⟩ (multiReduction .add [0] ⟨2, ![a, d]⟩ X 0x00000000#32 h hφ hacc) hc2) hb2)) hm (ix2 r j)
      = (∑ f : Fin n, X (ix3 f r s)) * (∑ f : Fin n, X (ix3 f r k)) := by
  rw [selfOuter_apply _ hc1 hb1 hc2 hb2 hm hmd r s k j hj, leadSum_apply X h hφ hacc r s, leadSum_apply X h hφ hacc r k]

end Cert.LeadSumOuter
-- ==== Proof.OuterSpec.lean ====
/-
  The specification: the flattened outer product of the field sum with itself.

  The argument `x` has shape `[32, 8192, 1, 64]`: 32 fields, 8192 samples, a unit axis, 64 features. Write
  `s (b, d) = ∑_f x (f, b, 0, d)` for the sum over the fields. The result has shape `[8192, 4096]`, and its entry
  `(b, j)` is `s (b, j / 64) · s (b, j % 64)`: row `b` is the `64 × 64` outer product of `s (b, ·)` with itself, laid
  out row-major. `outer x` is that array. `blockOuter X` is the same function of one block `X` of shape
  `[32, 256, 64]` (256 consecutive samples, the unit axis dropped), giving the `[256, 4096]` block of the result.
-/
import Idealize.ShloMosaic.Lib.ValueIdx
import Idealize.ShloMosaic.PureOps.Ideal

noncomputable section

namespace Cert.OuterSpec

open Idealize.ShloMosaic Idealize.ShloMosaic.ValueIdx

/-- The row of the `64 × 64` square that flat column `j` lies in. -/
def hi (j : Fin 4096) : Fin 64 := ⟨j.val / 64, by have := j.isLt; omega⟩
/-- The column of the `64 × 64` square that flat column `j` lies in. -/
def lo (j : Fin 4096) : Fin 64 := ⟨j.val % 64, by omega⟩

/-- Flat column `j` is position `(hi j, lo j)` of the square, row-major. -/
theorem hi_lo (j : Fin 4096) : j.val = (hi j).val * 64 + (lo j).val := by
  show j.val = j.val / 64 * 64 + j.val % 64
  omega

/-- The sum over the 32 fields: `s (b, d) = ∑_f x (f, b, 0, d)`. -/
def fieldSum (x : (⟨4, ![32, 8192, 1, 64]⟩ : Shape).Idx → EReal) (b : Fin 8192) (d : Fin 64) : EReal :=
  ∑ f : Fin 32, x (ix4 f b (0 : Fin 1) d)

/-- Entry `(b, j)` of the result: `s (b, j / 64) · s (b, j % 64)`. -/
def outerAt (x : (⟨4, ![32, 8192, 1, 64]⟩ : Shape).Idx → EReal) (b : Fin 8192) (j : Fin 4096) : EReal :=
  fieldSum x b (hi j) * fieldSum x b (lo j)

/-- The whole result array as one function of the argument. -/
def outer (x : (⟨4, ![32, 8192, 1, 64]⟩ : Shape).Idx → EReal) : (⟨2, ![8192, 4096]⟩ : Shape).Idx → EReal :=
  fun i => outerAt x (i 0) (i 1)

/-- Entry `(r, j)` of one block's result from the block `X` of 256 samples:
    `(∑_f X (f, r, j / 64)) · (∑_f X (f, r, j % 64))`. -/
def blockOuterAt (X : (⟨3, ![32, 256, 64]⟩ : Shape).Idx → EReal) (r : Fin 256) (j : Fin 4096) : EReal :=
  (∑ f : Fin 32, X (ix3 f r (hi j))) * (∑ f : Fin 32, X (ix3 f r (lo j)))

/-- One block's result as a function of the block. -/
def blockOuter (X : (⟨3, ![32, 256, 64]⟩ : Shape).Idx → EReal) : (⟨2, ![256, 4096]⟩ : Shape).Idx → EReal :=
  fun y => blockOuterAt X (y 0) (y 1)

end Cert.OuterSpec

end
-- ==== Proof.BodyValue.lean ====
/-
  What the kernel body leaves in the output block, as one function of the input block.

  The body handles its 256 samples as two chunks of 128. For each chunk it loads `[32, 128, 64]` rows of the input
  block, adds the 32 fields up, forms the flattened outer product of each row of the sum with itself, and stores
  the `[128, 4096]` result into the same rows of the output block. Both chunks compute the same function of their
  rows, and that function of rows `r` of the input block is rows `r` of `blockOuter`; the two stores tile the output
  block, so the block after the body is `blockOuter` of the input block.
-/
import proofs.«147543_j71545565217479_2_alg».proof.Proof.Gen.KernelIdeal.Frame
import proofs.«147543_j71545565217479_2_alg».proof.Proof.LibLeadSumOuter
import proofs.«147543_j71545565217479_2_alg».proof.Proof.OuterSpec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.OuterSpec

/-- One chunk's stored value at row `r`, flat column `j`, from the chunk's loaded rows `V`:
    `(∑_f V (f, r, j / 64)) · (∑_f V (f, r, j % 64))`. -/
theorem chunk_apply (V : Vec Ideal S32x128x64 .f32) (r : Fin 128) (j : Fin 4096) :
    k0_pay1 (F := Ideal) V (ix2 r j) = (∑ f : Fin 32, V (ix3 f r (hi j))) * (∑ f : Fin 32, V (ix3 f r (lo j))) := by
  unfold k0_pay1
  simp only [shapeCast_self]
  exact Cert.LeadSumOuter.sumOuter_apply (n := 32) (a := 128) (d := 64) (m := 4096) V _ _ _ _ _ _ _ _ rfl r (hi j) (lo j) j (hi_lo j)

/-- The second chunk's stored value is the same function of its loaded rows. -/
theorem chunk2_eq (V : Vec Ideal S32x128x64 .f32) : k0_pay2 (F := Ideal) V = k0_pay1 (F := Ideal) V := rfl

/-- Rows `0 … 127` of the input block, as the first chunk loads them. -/
theorem ld_first (X : Vec Ideal S32x256x64 .f32) (f : Fin 32) (r : Fin 128) (d : Fin 64) :
    View.ld X r0_0 (ix3 f r d) = X (ix3 f (⟨r.val, by have := r.isLt; omega⟩ : Fin 256) d) := by
  show X _ = X _
  refine congrArg X (funext fun a => Fin.ext ?_)
  match a with
  | ⟨0, _⟩ => show 0 + 1 * f.val = f.val; omega
  | ⟨1, _⟩ => show 0 + 1 * r.val = r.val; omega
  | ⟨2, _⟩ => show 0 + 1 * d.val = d.val; omega

/-- Rows `128 … 255` of the input block, as the second chunk loads them. -/
theorem ld_second (X : Vec Ideal S32x256x64 .f32) (f : Fin 32) (r : Fin 128) (d : Fin 64) :
    View.ld X r0_2 (ix3 f r d) = X (ix3 f (⟨128 + r.val, by have := r.isLt; omega⟩ : Fin 256) d) := by
  show X _ = X _
  refine congrArg X (funext fun a => Fin.ext ?_)
  match a with
  | ⟨0, _⟩ => show 0 + 1 * f.val = f.val; omega
  | ⟨1, _⟩ => show 128 + 1 * r.val = 128 + r.val; omega
  | ⟨2, _⟩ => show 0 + 1 * d.val = d.val; omega

/-- Where the first store puts its entry `(r, j)`: row `r` of the output block. -/
theorem emb_first (r : Fin 128) (j : Fin 4096) :
    r0_1.emb (ix2 r j) = ix2 (⟨r.val, by have := r.isLt; omega⟩ : Fin 256) j := by
  refine funext fun a => Fin.ext ?_
  match a with
  | ⟨0, _⟩ => show 0 + 1 * r.val = r.val; omega
  | ⟨1, _⟩ => show 0 + 1 * j.val = j.val; omega

/-- Where the second store puts its entry `(r, j)`: row `128 + r` of the output block. -/
theorem emb_second (r : Fin 128) (j : Fin 4096) :
    r0_3.emb (ix2 r j) = ix2 (⟨128 + r.val, by have := r.isLt; omega⟩ : Fin 256) j := by
  refine funext fun a => Fin.ext ?_
  match a with
  | ⟨0, _⟩ => show 128 + 1 * r.val = 128 + r.val; omega
  | ⟨1, _⟩ => show 0 + 1 * j.val = j.val; omega

/-- The first store's value is `blockOuter` of the input block at the place it is stored. -/
theorem piece_first (X : Vec Ideal S32x256x64 .f32) (x : S128x4096.Idx) :
    k0_pay1 (F := Ideal) (View.ld X r0_0) x = blockOuter X (r0_1.emb x) := by
  obtain ⟨r, j, rfl⟩ : ∃ (r : Fin 128) (j : Fin 4096), x = ix2 r j := ⟨x 0, x 1, eq_ix2 x⟩
  rw [emb_first r j]
  refine (chunk_apply (View.ld X r0_0) r j).trans ?_
  show _ = blockOuterAt X (⟨r.val, by have := r.isLt; omega⟩ : Fin 256) j
  exact congrArg₂ (· * ·) (Finset.sum_congr rfl fun f _ => ld_first X f r (hi j))
    (Finset.sum_congr rfl fun f _ => ld_first X f r (lo j))

/-- The second store's value is `blockOuter` of the input block at the place it is stored. -/
theorem piece_second (X : Vec Ideal S32x256x64 .f32) (x : S128x4096.Idx) :
    k0_pay2 (F := Ideal) (View.ld X r0_2) x = blockOuter X (r0_3.emb x) := by
  obtain ⟨r, j, rfl⟩ : ∃ (r : Fin 128) (j : Fin 4096), x = ix2 r j := ⟨x 0, x 1, eq_ix2 x⟩
  rw [emb_second r j, chunk2_eq]
  refine (chunk_apply (View.ld X r0_2) r j).trans ?_
  show _ = blockOuterAt X (⟨128 + r.val, by have := r.isLt; omega⟩ : Fin 256) j
  exact congrArg₂ (· * ·) (Finset.sum_congr rfl fun f _ => ld_second X f r (hi j))
    (Finset.sum_congr rfl fun f _ => ld_second X f r (lo j))

/-- THE BLOCK AFTER THE BODY: the two stores tile the output block and each holds `blockOuter` of the input block
    where it lands, so the output block is `blockOuter` of the input block. -/
theorem out_eq (X : Vec Ideal S32x256x64 .f32) : out0_1 (F := Ideal) X = blockOuter X := by
  funext y
  unfold out0_1
  refine View.canon_apply_of_pieces (Val := Elt Ideal) (S := S256x4096) (e := .f32) (blockOuter X) _ ?_ y (cover0_1 _ _ y)
  intro p hp x
  simp only [List.mem_cons, List.not_mem_nil, or_false] at hp
  rcases hp with rfl | rfl
  · exact piece_second X x
  · exact piece_first X x

end Cert.KernelIdeal.Body

end
-- ==== Proof.KernelValue.lean ====
/-
  The kernel's result array is the specification of the argument.

  The region's input array is the argument with its unit axis dropped, `[32, 8192, 64]`; grid point `t` of the 32
  reads its samples `256·t … 256·t + 255` (all fields, all features) and writes rows `256·t … 256·t + 255` of the
  `[8192, 4096]` result. What it writes is `blockOuter` of the block it read, and row `r` of that depends only on
  sample `256·t + r`: it is row `256·t + r` of `outer` of the argument. The 32 row blocks tile the result — sample
  `b` belongs to point `b / 256` — so the array after the run is `outer` of the argument.
-/
import proofs.«147543_j71545565217479_2_alg».proof.Proof.Gen.KernelIdeal.Value
import proofs.«147543_j71545565217479_2_alg».proof.Proof.BodyValue
import proofs.«147543_j71545565217479_2_alg».proof.Proof.OuterSpec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.OuterSpec

variable (m : (ℓ : Loc nD τ sig) → Buf (Elt Ideal) ℓ) (ρ : Dev nD → PrngReg)

/-- The array the region's input window stages: the argument with its unit axis dropped. -/
theorem V_input (c : Dev nD) :
    (V m c main_v0 : S32x8192x64.Idx → EReal)
      = shapeCast S32x8192x64 (m ((c : Thread nD τ).loc main_arg0) : S32x8192x1x64.Idx → EReal) shapeCasts_S32x8192x1x64_S32x8192x64 := by
  dsimp only [Gen.V, Gen.hostOps0]
  after_results
  rfl

/-- Entry `(f, b, d)` of that array is entry `(f, b, 0, d)` of the argument. -/
theorem V_input_apply (c : Dev nD) (f : Fin 32) (b : Fin 8192) (d : Fin 64) :
    (V m c main_v0 : S32x8192x64.Idx → EReal) (ix3 f b d)
      = (m ((c : Thread nD τ).loc main_arg0) : S32x8192x1x64.Idx → EReal) (ix4 f b (0 : Fin 1) d) := by
  rw [V_input]
  exact shapeCast_apply _ shapeCasts_S32x8192x1x64_S32x8192x64 (ix3 f b d) (ix4 f b (0 : Fin 1) d) (by
    rw [Shape.rowMajor_val_four, Shape.rowMajor_val_three]
    show ((f.val * 8192 + b.val) * 1 + 0) * 64 + d.val = (f.val * 8192 + b.val) * 64 + d.val
    omega)

/-- The printed index maps over the grid: point `t` reads block `(0, t, 0)` of the input array and writes block
    `(t, 0)` of the result. -/
theorem idx_facts : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

/-- The input block at point `t`: entry `(f, r, d)` is entry `(f, 256·t + r, 0, d)` of the argument. -/
theorem iblk_apply (c : Dev nD) (t : Fin cfg0.N) (f : Fin 32) (r : Fin 256) (d : Fin 64) (b : Fin 8192)
    (hb : b.val = t.val * 256 + r.val) :
    (iblk m c 0 t : Vec Ideal S32x256x64 .f32) (ix3 f r d)
      = (m ((c : Thread nD τ).loc main_arg0) : S32x8192x1x64.Idx → EReal) (ix4 f b (0 : Fin 1) d) := by
  obtain ⟨e0, e1, e2, -, -⟩ := idx_facts t
  refine Eq.trans ?_ (V_input_apply m c f b d)
  unfold iblk
  rw [View.read_apply]
  show V m c main_v0 _ = V m c main_v0 _
  refine congrArg (V m c main_v0) (funext fun a => Fin.ext ?_)
  match a with
  | ⟨0, _⟩ => show win0_0.index t (0 : Fin 3) * 32 + 1 * f.val = f.val; rw [e0]; omega
  | ⟨1, _⟩ => show win0_0.index t (1 : Fin 3) * 256 + 1 * r.val = b.val; rw [e1, hb]; omega
  | ⟨2, _⟩ => show win0_0.index t (2 : Fin 3) * 64 + 1 * d.val = d.val; rw [e2]; omega

/-- Row `r` of `blockOuter` of a block whose sample `r` is sample `b` of the argument is row `b` of `outer`. -/
theorem block_row (x : S32x8192x1x64.Idx → EReal) (X : Vec Ideal S32x256x64 .f32) (r : Fin 256) (b : Fin 8192)
    (hX : ∀ (f : Fin 32) (d : Fin 64), X (ix3 f r d) = x (ix4 f b (0 : Fin 1) d)) (j : Fin 4096) :
    blockOuterAt X r j = outerAt x b j := by
  unfold blockOuterAt outerAt fieldSum
  simp only [hX]

/-- WHAT POINT `t` WRITES BACK is block `t` of `outer` of the argument. -/
theorem flushed_eq (c : Dev nD) (t : Fin cfg0.N) :
    (dats m 0 c).flushed 1 t
      = ((cfg0.win 1).blk t).view.read (Elt Ideal) (outer (m ((c : Thread nD τ).loc main_arg0) : S32x8192x1x64.Idx → EReal)) := by
  rw [flushed1, Cert.KernelIdeal.Body.out_eq]
  obtain ⟨-, -, -, e3, e4⟩ := idx_facts t
  have hN : cfg0.N = 32 := N_0
  have ht : t.val < 32 := by have := t.isLt; omega
  funext y
  have hy0 : (y 0).val < 256 := (y 0).isLt
  have hy1 : (y 1).val < 4096 := (y 1).isLt
  show blockOuterAt (iblk m c 0 t) ⟨(y 0).val, hy0⟩ ⟨(y 1).val, hy1⟩
      = outerAt (m ((c : Thread nD τ).loc main_arg0) : S32x8192x1x64.Idx → EReal)
          ⟨win0_1.index t (0 : Fin 2) * 256 + 1 * (y 0).val, by rw [e3]; omega⟩
          ⟨win0_1.index t (1 : Fin 2) * 4096 + 1 * (y 1).val, by rw [e4]; omega⟩
  have hj : (⟨win0_1.index t (1 : Fin 2) * 4096 + 1 * (y 1).val, by rw [e4]; omega⟩ : Fin 4096) = ⟨(y 1).val, hy1⟩ :=
    Fin.ext (by show win0_1.index t (1 : Fin 2) * 4096 + 1 * (y 1).val = (y 1).val; rw [e4]; omega)
  rw [hj]
  refine block_row _ _ _ _ (fun f d => iblk_apply m c t f _ d _ ?_) _
  show win0_1.index t (0 : Fin 2) * 256 + 1 * (y 0).val = t.val * 256 + (y 0).val
  rw [e3]; omega

/-- An index of the result is in point `t`'s block iff each coordinate is in the block's range on its axis. -/
theorem mem_blk (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Every index of the result is in some point's block: row `b` in point `b / 256`'s. -/
theorem cover (i : S8192x4096.Idx) :
    ∃ t : Fin cfg0.N, (cfg0.win 1).flush t = true ∧ i ∈ ((cfg0.win 1).blk t).view.set := by
  have hN : cfg0.N = 32 := N_0
  have hi0 : (i 0).val < 8192 := (i 0).isLt
  have hi1 : (i 1).val < 4096 := (i 1).isLt
  let t : Fin cfg0.N := ⟨(i 0).val / 256, by rw [hN]; omega⟩
  obtain ⟨-, -, -, e3, e4⟩ := idx_facts t
  have e3' : win0_1.index t (0 : Fin 2) = (i 0).val / 256 := e3
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; rw [e3']; omega
  | ⟨1, _⟩ => show win0_1.index t (1 : Fin 2) * 4096 ≤ (i 1).val ∧ (i 1).val < win0_1.index t (1 : Fin 2) * 4096 + 4096; rw [e4]; omega

/-- THE RESULT ARRAY after the run is `outer` of the argument. -/
theorem final (c : Dev nD) :
    (dats m 0 c).arrAt 1 cfg0.N = outer (m ((c : Thread nD τ).loc main_arg0) : S32x8192x1x64.Idx → EReal) :=
  (dats m 0 c).arrAt_eq_of_cover 1 (outer (m ((c : Thread nD τ).loc main_arg0) : S32x8192x1x64.Idx → EReal))
    (fun t _ => flushed_eq m c t) cover

/-- The kernel's run, read: the result array at `outer` of the argument, the argument unchanged. -/
theorem run : θ_run defs (onTc (τ := τ) (main (F := Ideal))) ⟨m, fun _ => 0, ρ⟩ fun r => ∀ c : Dev nD,
      r.2.mem ((c : Thread nD τ).loc main_v1) = outer (m ((c : Thread nD τ).loc main_arg0) : S32x8192x1x64.Idx → EReal)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.RefValue.lean ====
/-
  The reference computes the specification.

  The reference adds the 32 fields up on the whole argument (a sum from the zero word, along the leading axis),
  contracts the sum with itself over the unit axis with the samples as a batch axis — a sum with ONE term, the
  product `s (b, 0, d) · s (b, 0, e)` —, and flattens the `[8192, 64, 64]` result to `[8192, 4096]`. Entry `(b, j)` of
  the flat array is entry `(b, j / 64, j % 64)` of the stacked one, so it is `s (b, j / 64) · s (b, j % 64)`: `outer`.
  The zero word denotes the real number zero, which adding to a sum of extended reals leaves alone.
-/
import proofs.«147543_j71545565217479_2_alg».proof.Proof.Gen.ReferenceIdeal.Read
import proofs.«147543_j71545565217479_2_alg».proof.Proof.OuterSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.OuterSpec

/-- The left factor of the one product at flat entry `(b, j)` sums the argument over `(f, b, 0, j / 64)`. -/
theorem left_idx (b : Fin 8192) (j : Fin 4096) (f : Fin 32) :
    idx_main_v0 (lidx_main_v1 (idx_main_v2 (ix2 b j)) (0 : Fin 1)) f = ix4 f b (0 : Fin 1) (hi j) := by
  refine funext fun a => Fin.ext ?_
  have hb := b.isLt
  have hj := j.isLt
  match a with
  | ⟨0, _⟩ => rfl
  | ⟨1, _⟩ => show (b.val * 4096 + j.val) / 4096 = b.val; omega
  | ⟨2, _⟩ => rfl
  | ⟨3, _⟩ => show (b.val * 4096 + j.val) / 64 % 64 = j.val / 64; omega

/-- The right factor sums the argument over `(f, b, 0, j % 64)`. -/
theorem right_idx (b : Fin 8192) (j : Fin 4096) (f : Fin 32) :
    idx_main_v0 (ridx_main_v1 (idx_main_v2 (ix2 b j)) (0 : Fin 1)) f = ix4 f b (0 : Fin 1) (lo j) := by
  refine funext fun a => Fin.ext ?_
  have hb := b.isLt
  have hj := j.isLt
  match a with
  | ⟨0, _⟩ => rfl
  | ⟨1, _⟩ => show (b.val * 4096 + j.val) / 4096 = b.val; omega
  | ⟨2, _⟩ => rfl
  | ⟨3, _⟩ => show (b.val * 4096 + j.val) % 64 = j.val % 64; omega

/-- THE REFERENCE'S RESULT is `outer` of the argument. -/
theorem ref_eq (x : (⟨S32x8192x1x64, .f32⟩ : BufTy).Contents (Elt Ideal)) :
    val_main_v2 (F := Ideal) x = outer x := by
  funext i
  obtain ⟨b, j, rfl⟩ : ∃ (b : Fin 8192) (j : Fin 4096), i = ix2 b j := ⟨i 0, i 1, eq_ix2 i⟩
  rw [val_main_v2_apply, val_main_v1_apply, Fin.sum_univ_one, val_main_v0_apply, val_main_v0_apply]
  simp only [val_main_cst_apply, left_idx, right_idx]
  show (Ideal.ofBits .f32 0x00000000#32 + _) * (Ideal.ofBits .f32 0x00000000#32 + _) = outerAt x b j
  rw [Ideal.ofBits_zero_f32, zero_add, zero_add]
  rfl

end Cert.ReferenceIdeal.RefValue

end
-- ==== Proof.lean ====
/-
  The kernel and its reference compute one function on the extended reals.

  The argument `x` has shape `[32, 8192, 1, 64]`. With `s (b, d) = ∑_f x (f, b, 0, d)`, the sum over the 32 fields,
  both programs return the `[8192, 4096]` array whose entry `(b, j)` is `s (b, j / 64) · s (b, j % 64)`
  (`Cert.OuterSpec.outer`): each row is the outer product of `s (b, ·)` with itself, flattened row-major.

  • The kernel drops the unit axis on the host and, per grid point, adds the fields up for 256 samples (two chunks of
    128), spreads the sum along a new last axis and along a new middle axis, multiplies, merges the two trailing
    axes and stores the rows; the 32 row blocks tile the result (`Cert.KernelIdeal.Hand.run`).
  • The reference adds the fields up on the whole argument from the zero word, contracts the sum with itself over the
    unit axis — a one-term sum —, and merges the two trailing axes (`Cert.ReferenceIdeal.RefValue.ref_eq`).
  The two differ in how the 8192 samples are tiled and in the zero the reference's sum starts from; zero is neutral
  for the addition of extended reals, so no finiteness of the input is used. The ideal pass rewrote nothing, so the
  idealized kernel is the kernel's own text and `preserves` asks nothing.
-/
import proofs.«147543_j71545565217479_2_alg».proof.Defs
import proofs.«147543_j71545565217479_2_alg».proof.Proof.Gen.Kernel
import proofs.«147543_j71545565217479_2_alg».proof.Proof.Gen.Kernel.Skeleton
import proofs.«147543_j71545565217479_2_alg».proof.Proof.Gen.Kernel.Launch
import proofs.«147543_j71545565217479_2_alg».proof.Proof.Gen.Kernel.Points
import proofs.«147543_j71545565217479_2_alg».proof.Proof.Gen.Kernel.Frame
import proofs.«147543_j71545565217479_2_alg».proof.Proof.Gen.KernelIdeal
import proofs.«147543_j71545565217479_2_alg».proof.Proof.Gen.KernelIdeal.Skeleton
import proofs.«147543_j71545565217479_2_alg».proof.Proof.Gen.KernelIdeal.Launch
import proofs.«147543_j71545565217479_2_alg».proof.Proof.Gen.KernelIdeal.Points
import proofs.«147543_j71545565217479_2_alg».proof.Proof.Gen.KernelIdeal.Frame
import proofs.«147543_j71545565217479_2_alg».proof.Proof.Gen.ReferenceIdeal
import proofs.«147543_j71545565217479_2_alg».proof.Proof.Gen.Pre_finite_inputs
import proofs.«147543_j71545565217479_2_alg».proof.Proof.Gen.KernelIdeal.Value
import proofs.«147543_j71545565217479_2_alg».proof.Proof.Gen.ReferenceIdeal.Run
import proofs.«147543_j71545565217479_2_alg».proof.Proof.Gen.ReferenceIdeal.Read
import Idealize.ShloMosaic.Adequacy
import Idealize.ShloMosaic.Init

import proofs.«147543_j71545565217479_2_alg».proof.Proof.KernelValue
import proofs.«147543_j71545565217479_2_alg».proof.Proof.RefValue

noncomputable section

namespace Cert.Proof

open Idealize.ShloMosaic Idealize.SL.Sem

/-- The word-level kernel runs, faults nowhere and leaves its argument as it was. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument, the idealized kernel ends with its result array at `outer` of the
    argument and the reference with its result at `outer` of the same argument. -/
theorem algebraic : Cert.algebraic_KernelIdeal_ReferenceIdeal := by
  intro m ρ m' ρ' _ hagree
  refine ⟨fun c => Cert.OuterSpec.outer
      (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
